-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1x128 : Shape := ⟨2, ![1, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1x128 .f32) (main_arg5 : FVec F S1600000 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x128 .f32) (main_arg1 : FVec F S128x128 .f32) (main_arg2 : FVec F S128x128 .f32) (main_arg3 : FVec F S1x128 .f32) (main_arg4 : FVec F S1x128 .f32) (main_arg5 : FVec F S1600000 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S1x128 : Shape := ⟨2, ![1, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S1x128, .f32⟩
  | .hbm, ⟨4, _⟩ => ⟨S1x128, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1x128 : Shape := ⟨2, ![1, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S1x128, .f32⟩
  | .hbm, ⟨4, _⟩ => ⟨S1x128, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S_, .f32⟩
  | .hbm, ⟨35, _⟩ => ⟨S100000x128, .f32⟩
  | .hbm, ⟨36, _⟩ => ⟨S100000x128, .i1⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LayerSpec.lean ====
/-
  One propagation layer of a graph network, as a function of its arrays, index by index, over the extended reals.

  From the node embeddings `ego` and the aggregated neighbour embeddings `lap` (both M × 128), two 128 × 128 weight
  matrices and two bias rows, the layer forms at row `r` and column `c`

    s(r, c)   = (∑ₖ (ego(r,k) + lap(r,k)) · W1(k,c) + b1(c)) + (∑ₖ (ego(r,k) · lap(r,k)) · W2(k,c) + b2(c)),
    a(r, c)   = s(r, c) where s(r, c) ≥ 0, else slope · s(r, c)              (the leaky rectifier),
    out(r, c) = a(r, c) / max(√(∑ⱼ a(r, j)²), ε)                              (each row scaled to unit length).

  Row `r` of the result depends on row `r` of `ego` and of `lap` only (`rowOut_congr`): this is what lets a
  computation that walks the rows block by block agree with one that takes all rows at once.
-/
import Idealize.ShloMosaic.PureOps.Ideal
import Idealize.ShloMosaic.PureOps.Ideal.Laws
import Idealize.ShloMosaic.Lib.ValueIdx

noncomputable section

open scoped BigOperators

namespace Cert.Layer

open Idealize.ShloMosaic Idealize.ShloMosaic.ValueIdx

variable {M : ℕ}

/-- The two matrix products with their bias rows, added: entry (r, c). -/
def pre (ego lap : FVec Ideal ⟨2, ![M, 128]⟩ .f32) (W1 W2 : FVec Ideal ⟨2, ![128, 128]⟩ .f32)
    (b1 b2 : FVec Ideal ⟨2, ![1, 128]⟩ .f32) (r : Fin M) (c : Fin 128) : EReal :=
  ((∑ k : Fin 128, (ego (ix2 r k) + lap (ix2 r k)) * W1 (ix2 k c)) + b1 (ix2 (0 : Fin 1) c))
    + ((∑ k : Fin 128, (ego (ix2 r k) * lap (ix2 r k)) * W2 (ix2 k c)) + b2 (ix2 (0 : Fin 1) c))

/-- The leaky rectifier of an extended real: itself where it is at least zero, else the slope times it. The zero and the
    slope are kept as the binary words both programs write. -/
def leaky (s : EReal) : EReal :=
  Scalar.select (Ideal.cmp .oge s (Ideal.ofBits .f32 0x00000000#32)) s (Ideal.ofBits .f32 0x3E4CCCCD#32 * s)

/-- The activation: entry (r, c). -/
def act (ego lap : FVec Ideal ⟨2, ![M, 128]⟩ .f32) (W1 W2 : FVec Ideal ⟨2, ![128, 128]⟩ .f32)
    (b1 b2 : FVec Ideal ⟨2, ![1, 128]⟩ .f32) (r : Fin M) (c : Fin 128) : EReal :=
  leaky (pre ego lap W1 W2 b1 b2 r c)

/-- The length of row `r` of the activation, kept away from zero by the floor ε (its binary word as written). -/
def rowNorm (ego lap : FVec Ideal ⟨2, ![M, 128]⟩ .f32) (W1 W2 : FVec Ideal ⟨2, ![128, 128]⟩ .f32)
    (b1 b2 : FVec Ideal ⟨2, ![1, 128]⟩ .f32) (r : Fin M) : EReal :=
  max (Ideal.sqrt (∑ j : Fin 128, act ego lap W1 W2 b1 b2 r j * act ego lap W1 W2 b1 b2 r j))
    (Ideal.ofBits .f32 0x2B8CBCCC#32)

/-- The layer's result: entry (r, c). -/
def rowOut (ego lap : FVec Ideal ⟨2, ![M, 128]⟩ .f32) (W1 W2 : FVec Ideal ⟨2, ![128, 128]⟩ .f32)
    (b1 b2 : FVec Ideal ⟨2, ![1, 128]⟩ .f32) (r : Fin M) (c : Fin 128) : EReal :=
  Ideal.div (act ego lap W1 W2 b1 b2 r c) (rowNorm ego lap W1 W2 b1 b2 r)

/-- The layer's result as an array. -/
def layer (ego lap : FVec Ideal ⟨2, ![M, 128]⟩ .f32) (W1 W2 : FVec Ideal ⟨2, ![128, 128]⟩ .f32)
    (b1 b2 : FVec Ideal ⟨2, ![1, 128]⟩ .f32) : FVec Ideal ⟨2, ![M, 128]⟩ .f32 :=
  fun i => rowOut ego lap W1 W2 b1 b2 (i 0) (i 1)

theorem layer_ix2 (ego lap : FVec Ideal ⟨2, ![M, 128]⟩ .f32) (W1 W2 : FVec Ideal ⟨2, ![128, 128]⟩ .f32)
    (b1 b2 : FVec Ideal ⟨2, ![1, 128]⟩ .f32) (r : Fin M) (c : Fin 128) :
    layer ego lap W1 W2 b1 b2 (ix2 r c) = rowOut ego lap W1 W2 b1 b2 r c := rfl

/-- Row `r'` of the layer on arrays of M' rows is row `r` of the layer on arrays of M rows, when the two rows of the
    node embeddings agree and the two rows of the aggregated embeddings agree: every sum in the layer runs along a row. -/
theorem rowOut_congr {M' : ℕ} (ego lap : FVec Ideal ⟨2, ![M, 128]⟩ .f32) (ego' lap' : FVec Ideal ⟨2, ![M', 128]⟩ .f32)
    (W1 W2 : FVec Ideal ⟨2, ![128, 128]⟩ .f32) (b1 b2 : FVec Ideal ⟨2, ![1, 128]⟩ .f32) (r : Fin M) (r' : Fin M')
    (he : ∀ k : Fin 128, ego' (ix2 r' k) = ego (ix2 r k)) (hl : ∀ k : Fin 128, lap' (ix2 r' k) = lap (ix2 r k)) (c : Fin 128) :
    rowOut ego' lap' W1 W2 b1 b2 r' c = rowOut ego lap W1 W2 b1 b2 r c := by
  have hp : ∀ j : Fin 128, pre ego' lap' W1 W2 b1 b2 r' j = pre ego lap W1 W2 b1 b2 r j := fun j => by
    unfold pre
    simp only [he, hl]
  unfold rowOut rowNorm act
  simp only [hp]

end Cert.Layer

end
-- ==== Proof.KernelBody.lean ====
/-
  The kernel body's arithmetic, read at one entry of its 5000 × 128 output block: it is the layer (LayerSpec) of the
  body's six loaded blocks — 5000 rows of the node embeddings and of the aggregated embeddings, the two weight
  matrices and the two bias rows. The matrix unit's product into a zero accumulator is the plain sum over the
  contracted column; the lane reduction is the sum along a row; the casts and broadcasts around the row norm only
  move a row's one number to every column of the row.
-/
import proofs.«130024_j13408887898544_1_alg».proof.Proof.Gen.KernelIdeal.Skeleton
import proofs.«130024_j13408887898544_1_alg».proof.Proof.LayerSpec
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Layer

/-! ## The matrix product at an entry -/

abbrev D := dot_S5000x128_S128x128_S5000x128_1_0_0_1_n_n

theorem lhs_row (i : S5000x128.Idx) (q : D.contr.Idx) : (D.lhsIdx i q 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

theorem lhs_col (i : S5000x128.Idx) (q : D.contr.Idx) : (D.lhsIdx i q 1).val = (q ⟨0, by decide⟩).val :=
  D.lhsIdx_val_of_single rfl i q

theorem rhs_row (i : S5000x128.Idx) (q : D.contr.Idx) : (D.rhsIdx i q 0).val = (q ⟨0, by decide⟩).val :=
  D.rhsIdx_val_of_single rfl i q

theorem rhs_col (i : S5000x128.Idx) (q : D.contr.Idx) : (D.rhsIdx i q 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- A 5000 × 128 block times a 128 × 128 matrix into the zero accumulator: entry (p, q) is the sum over the shared
    column `k` of the block's (p, k) times the matrix's (k, q). -/
theorem matmul_entry (x : FVec Ideal S5000x128 .f32) (w : FVec Ideal S128x128 .f32) (p : Fin 5000) (q : Fin 128) :
    matmul D none x w (constant S5000x128 .f32 0x00000000#32) (ix2 p q) = ∑ k : Fin 128, x (ix2 p k) * w (ix2 k q) := by
  show FloatOps.matmul D none x w (constant S5000x128 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [el, er]

/-! ## The body's value, in three stages -/

/-- The two products with their biases, added (the body's value before the rectifier). -/
def kPre (v0 v1 : FVec Ideal S5000x128 .f32) (v4 : FVec Ideal S128x128 .f32) (v6 : FVec Ideal S1x128 .f32)
    (v10 : FVec Ideal S128x128 .f32) (v12 : FVec Ideal S1x128 .f32) : FVec Ideal S5000x128 .f32 :=
  addf (addf (matmul D none (addf v0 (shapeCast S5000x128 v1 shapeCasts_S5000x128_S5000x128)) v4 (constant S5000x128 .f32 0x00000000#32))
      (broadcastTo S5000x128 v6 broadcasts_S1x128_S5000x128))
    (addf (matmul D none (mulf v0 (shapeCast S5000x128 v1 shapeCasts_S5000x128_S5000x128)) v10 (constant S5000x128 .f32 0x00000000#32))
      (broadcastTo S5000x128 v12 broadcasts_S1x128_S5000x128))

/-- The rectified value. -/
def kAct (s : FVec Ideal S5000x128 .f32) : FVec Ideal S5000x128 .f32 :=
  select (cmpf .oge s (broadcast S5000x128 (Scalar.ofBits .f32 0x00000000#32))) s
    (mulf (broadcast S5000x128 (Scalar.ofBits .f32 0x3E4CCCCD#32)) s)

/-- Each row divided by its floored length. -/
def kOut (a : FVec Ideal S5000x128 .f32) : FVec Ideal S5000x128 .f32 :=
  divf a (broadcastTo S5000x128
    (maximumf (sqrt (shapeCast S5000x1 (multiReduction .add [1] S5000 (mulf a a) 0x00000000#32 reduces_S5000x128_S5000 (.inl rfl) rfl)
        shapeCasts_S5000_S5000x1))
      (broadcast S5000x1 (Scalar.ofBits .f32 0x2B8CBCCC#32)))
    broadcasts_S5000x1_S5000x128)

/-- The body's stored value is these three stages composed. -/
theorem pay_eq (v0 v1 : FVec Ideal S5000x128 .f32) (v4 : FVec Ideal S128x128 .f32) (v6 : FVec Ideal S1x128 .f32)
    (v10 : FVec Ideal S128x128 .f32) (v12 : FVec Ideal S1x128 .f32) :
    k0_pay1 (F := Ideal) v0 v1 v4 v6 v10 v12 = kOut (kAct (kPre v0 v1 v4 v6 v10 v12)) := rfl

theorem kPre_entry (v0 v1 : FVec Ideal S5000x128 .f32) (v4 : FVec Ideal S128x128 .f32) (v6 : FVec Ideal S1x128 .f32)
    (v10 : FVec Ideal S128x128 .f32) (v12 : FVec Ideal S1x128 .f32) (p : Fin 5000) (q : Fin 128) :
    kPre v0 v1 v4 v6 v10 v12 (ix2 p q) = pre (M := 5000) v0 v1 v4 v10 v6 v12 p q := by
  unfold kPre pre
  rw [addf_apply, addf_apply, addf_apply, matmul_entry, matmul_entry, broadcastTo_1b_ab_apply, broadcastTo_1b_ab_apply,
    shapeCast_self]
  rfl

theorem kAct_entry (s : FVec Ideal S5000x128 .f32) (i : S5000x128.Idx) : kAct s i = leaky (s i) := rfl

/-- A row's sum of squares, as the lane reduction computes it. -/
theorem rowSum_entry (src : FVec Ideal S5000x128 .f32) (h : S5000x128.Reduces [1] S5000) (hφ : FKind.Formats .f32)
    (hacc : (0x00000000#32 : BitVec 32) = FKind.add.neutral .f32 hφ) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext (by
    match a with
    | ⟨0, _⟩ => rfl
    | ⟨1, _⟩ => rfl))

/-- A length-5000 vector cast to a 5000 × 1 column reads, at (p, u), the vector at p. -/
theorem column_entry {α : Type} (v : S5000.Idx → α) (p : Fin 5000) (u : Fin 1) :
    shapeCast S5000x1 v shapeCasts_S5000_S5000x1 (ix2 p u) = v (ix1 p) :=
  shapeCast_apply v _ _ _ (by
    have hu : u.val = 0 := by omega
    rw [Shape.rowMajor_val_two, Shape.rowMajor_val_one]
    show p.val = p.val * 1 + u.val
    omega)

/-- A 5000 × 1 column broadcast along the rows reads, at (p, q), the column at (p, 0). -/
theorem spread_entry {α : Type} (v : S5000x1.Idx → α) (p : Fin 5000) (q : Fin 128) :
    broadcastTo S5000x128 v broadcasts_S5000x1_S5000x128 (ix2 p q) = v (ix2 p (0 : Fin 1)) := by
  refine broadcastTo_apply v _ (ix2 p q) (ix2 p (0 : Fin 1)) fun ax => ?_
  match ax with
  | ⟨0, _⟩ => rfl
  | ⟨1, _⟩ => rfl

theorem kOut_entry (a : FVec Ideal S5000x128 .f32) (p : Fin 5000) (q : Fin 128) :
    kOut a (ix2 p q) = Ideal.div (a (ix2 p q))
      (max (Ideal.sqrt (∑ j : Fin 128, a (ix2 p j) * a (ix2 p j))) (Ideal.ofBits .f32 0x2B8CBCCC#32)) := by
  unfold kOut
  rw [divf_apply, spread_entry, maximumf_apply]
  show Ideal.div _ (max (Ideal.sqrt (shapeCast S5000x1 _ shapeCasts_S5000_S5000x1 (ix2 p (0 : Fin 1)))) _) = _
  rw [column_entry]
  refine congrArg (fun z => Ideal.div (a (ix2 p q)) (max (Ideal.sqrt z) (Ideal.ofBits .f32 0x2B8CBCCC#32))) ?_
  exact rowSum_entry (mulf a a) _ _ _ p

/-- THE BODY'S VALUE AT AN ENTRY: the layer of the six loaded blocks. -/
theorem pay_entry (v0 v1 : FVec Ideal S5000x128 .f32) (v4 : FVec Ideal S128x128 .f32) (v6 : FVec Ideal S1x128 .f32)
    (v10 : FVec Ideal S128x128 .f32) (v12 : FVec Ideal S1x128 .f32) (p : Fin 5000) (q : Fin 128) :
    k0_pay1 (F := Ideal) v0 v1 v4 v6 v10 v12 (ix2 p q) = rowOut (M := 5000) v0 v1 v4 v10 v6 v12 p q := by
  rw [pay_eq, kOut_entry]
  unfold rowOut rowNorm act
  simp only [kAct_entry, kPre_entry]

end Cert.KernelIdeal.Body

end
-- ==== Proof.KernelValue.lean ====
/-
  The kernel's result array as ONE function of the arrays the pipeline stages. The grid has twenty points; point `t`
  stages rows 5000·t … 5000·t + 4999 of the node embeddings and of the aggregate, the whole weight matrices and bias
  rows, and writes back rows 5000·t … 5000·t + 4999 of the result. The body's value at an entry is the layer of its
  blocks (KernelBody), and a row of the layer depends on that row of the two staged arrays only, so what point `t`
  writes back is block `t` of the layer of the WHOLE arrays; the twenty blocks cover the array (the point covering
  row r is r / 5000), so the result array is the layer of the whole arrays. The aggregate itself — what the host
  operations before the launch leave in the staged buffer — is kept as one named function of the arguments.
-/
import proofs.«130024_j13408887898544_1_alg».proof.Proof.Gen.KernelIdeal.Value
import proofs.«130024_j13408887898544_1_alg».proof.Proof.KernelBody
import proofs.«130024_j13408887898544_1_alg».proof.Proof.LayerSpec
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

/-! ## The aggregate the host operations leave -/

/-- THE AGGREGATION: for every edge the source node's row of the embeddings (a negative source index counted back from
    the number of nodes), scaled by the edge's weight, summed into the row of the edge's target node. -/
def aggregate (ego : FVec Ideal S100000x128 .f32) (adj : FVec Ideal S1600000 .f32) (src dst : IVec S1600000 32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf
      (Host.gather gather_S100000x128_S1600000x1_S1600000x128_1_0_n_n_0_1_1128 ego
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 adj)))

/-- The staged aggregate buffer, as the region finds it, is that function of the argument arrays. -/
theorem V_aggregate (c : Dev nD) :
    (V m c main_v12 : S100000x128.Idx → EReal)
      = aggregate (m ((c : Thread nD τ).loc main_arg0)) (m ((c : Thread nD τ).loc main_arg5))
          (m ((c : Thread nD τ).loc main_arg6)) (m ((c : Thread nD τ).loc main_arg7)) := by
  dsimp only [Gen.V, Gen.hostOps0]
  after_results
  rfl

/-! ## One entry of a block -/

/-- The body's value at entry (p, q) of its block is the layer's entry (r, q) on whole arrays, when row p of each of the
    two row blocks is row r of its array and the parameter blocks are the parameter arrays. -/
theorem block_entry (x0 x1 : FVec Ideal S5000x128 .f32) (x2 x3 : FVec Ideal S128x128 .f32) (x4 x5 : FVec Ideal S1x128 .f32)
    (ego lap : FVec Ideal S100000x128 .f32) (W1 W2 : FVec Ideal S128x128 .f32) (b1 b2 : FVec Ideal S1x128 .f32)
    (p : Fin 5000) (r : Fin 100000) (q : Fin 128)
    (h0 : ∀ k : Fin 128, x0 (ix2 p k) = ego (ix2 r k)) (h1 : ∀ k : Fin 128, x1 (ix2 p k) = lap (ix2 r k))
    (h2 : x2 = W1) (h3 : x3 = W2) (h4 : x4 = b1) (h5 : x5 = b2) :
    k0_pay1 (F := Ideal) x0 x1 x2 x4 x3 x5 (ix2 p q) = layer (M := 100000) ego lap W1 W2 b1 b2 (ix2 r q) := by
  subst h2 h3 h4 h5
  rw [Cert.KernelIdeal.Body.pay_entry, layer_ix2]
  exact rowOut_congr ego lap x0 x1 x2 x3 x4 x5 r p h0 h1 q

/-! ## From blocks to the array -/

theorem hz : (![0, 0] : Fin 2 → Nat) = fun _ => 0 := funext fun a => by fin_cases a <;> rfl

/-- The printed index maps over the grid: the two row windows and the output window are at block row `t`, column block
    0; the parameter windows stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem hN : cfg0.N = 20 := N_0

/-- THE BODY'S RESULT ON THE BLOCKS AT POINT `t` of ANY six arrays is block `t` of the layer of those arrays: rows
    5000·t … 5000·t + 4999 of the two row arrays are the rows of their blocks, and the parameter blocks are the whole
    parameter arrays. -/
theorem out_block (t : Fin cfg0.N) (A0 A1 : FVec Ideal S100000x128 .f32) (A2 A3 : FVec Ideal S128x128 .f32)
    (A4 A5 : FVec Ideal S1x128 .f32) :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (layer (M := 100000) A0 A1 A2 A3 A4 A5) := by
  unfold out0_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  have ht : t.val < 20 := hN ▸ t.isLt
  funext y
  have hp : (y 0).val < 5000 := (y 0).isLt
  have hq : (y 1).val < 128 := (y 1).isLt
  let p : Fin 5000 := ⟨(y 0).val, hp⟩
  let q : Fin 128 := ⟨(y 1).val, hq⟩
  let r : Fin 100000 := ⟨t.val * 5000 + (y 0).val, by omega⟩
  have hy : (y : S5000x128.Idx) = ix2 p q := funext fun a => by
    match a with
    | ⟨0, _⟩ => rfl
    | ⟨1, _⟩ => rfl
  have hemb : (((cfg0.win 6).blk t).view.emb y : S100000x128.Idx) = ix2 r q := funext fun a => Fin.ext (by
    match a with
    | ⟨0, _⟩ => show win0_6.index t (0 : Fin 2) * 5000 + 1 * (y 0).val = t.val * 5000 + (y 0).val; omega
    | ⟨1, _⟩ => show win0_6.index t (1 : Fin 2) * 128 + 1 * (y 1).val = (y 1).val; omega)
  have h0 : ∀ k : Fin 128, ((cfg0.win 0).blk t).view.read (Elt Ideal) A0 (ix2 p k) = A0 (ix2 r k) := fun k => by
    show A0 (((cfg0.win 0).blk t).view.emb (ix2 p k)) = A0 (ix2 r k)
    refine congrArg A0 (funext fun a => Fin.ext ?_)
    match a with
    | ⟨0, _⟩ => show win0_0.index t (0 : Fin 2) * 5000 + 1 * (y 0).val = t.val * 5000 + (y 0).val; omega
    | ⟨1, _⟩ => show win0_0.index t (1 : Fin 2) * 128 + 1 * k.val = k.val; omega
  have h1 : ∀ k : Fin 128, ((cfg0.win 1).blk t).view.read (Elt Ideal) A1 (ix2 p k) = A1 (ix2 r k) := fun k => by
    show A1 (((cfg0.win 1).blk t).view.emb (ix2 p k)) = A1 (ix2 r k)
    refine congrArg A1 (funext fun a => Fin.ext ?_)
    match a with
    | ⟨0, _⟩ => show win0_1.index t (0 : Fin 2) * 5000 + 1 * (y 0).val = t.val * 5000 + (y 0).val; omega
    | ⟨1, _⟩ => show win0_1.index t (1 : Fin 2) * 128 + 1 * k.val = k.val; omega
  have h2 : ((cfg0.win 2).blk t).view.read (Elt Ideal) A2 = A2 := funext fun j => by
    show A2 (((cfg0.win 2).blk t).view.emb j) = A2 j
    refine congrArg A2 (funext fun a => Fin.ext ?_)
    match a with
    | ⟨0, _⟩ => show win0_2.index t (0 : Fin 2) * 128 + 1 * (j 0).val = (j 0).val; omega
    | ⟨1, _⟩ => show win0_2.index t (1 : Fin 2) * 128 + 1 * (j 1).val = (j 1).val; omega
  have h3 : ((cfg0.win 3).blk t).view.read (Elt Ideal) A3 = A3 := funext fun j => by
    show A3 (((cfg0.win 3).blk t).view.emb j) = A3 j
    refine congrArg A3 (funext fun a => Fin.ext ?_)
    match a with
    | ⟨0, _⟩ => show win0_3.index t (0 : Fin 2) * 128 + 1 * (j 0).val = (j 0).val; omega
    | ⟨1, _⟩ => show win0_3.index t (1 : Fin 2) * 128 + 1 * (j 1).val = (j 1).val; omega
  have h4 : ((cfg0.win 4).blk t).view.read (Elt Ideal) A4 = A4 := funext fun j => by
    show A4 (((cfg0.win 4).blk t).view.emb j) = A4 j
    refine congrArg A4 (funext fun a => Fin.ext ?_)
    match a with
    | ⟨0, _⟩ => show win0_4.index t (0 : Fin 2) * 1 + 1 * (j 0).val = (j 0).val; omega
    | ⟨1, _⟩ => show win0_4.index t (1 : Fin 2) * 128 + 1 * (j 1).val = (j 1).val; omega
  have h5 : ((cfg0.win 5).blk t).view.read (Elt Ideal) A5 = A5 := funext fun j => by
    show A5 (((cfg0.win 5).blk t).view.emb j) = A5 j
    refine congrArg A5 (funext fun a => Fin.ext ?_)
    match a with
    | ⟨0, _⟩ => show win0_5.index t (0 : Fin 2) * 1 + 1 * (j 0).val = (j 0).val; omega
    | ⟨1, _⟩ => show win0_5.index t (1 : Fin 2) * 128 + 1 * (j 1).val = (j 1).val; omega
  show k0_pay1 (F := Ideal) (((cfg0.win 0).blk t).view.read (Elt Ideal) A0) (((cfg0.win 1).blk t).view.read (Elt Ideal) A1)
      (((cfg0.win 2).blk t).view.read (Elt Ideal) A2) (((cfg0.win 4).blk t).view.read (Elt Ideal) A4)
      (((cfg0.win 3).blk t).view.read (Elt Ideal) A3) (((cfg0.win 5).blk t).view.read (Elt Ideal) A5) y
    = layer (M := 100000) A0 A1 A2 A3 A4 A5 (((cfg0.win 6).blk t).view.emb y)
  rw [hemb]
  refine (congrArg (k0_pay1 (F := Ideal) (((cfg0.win 0).blk t).view.read (Elt Ideal) A0) (((cfg0.win 1).blk t).view.read (Elt Ideal) A1)
      (((cfg0.win 2).blk t).view.read (Elt Ideal) A2) (((cfg0.win 4).blk t).view.read (Elt Ideal) A4)
      (((cfg0.win 3).blk t).view.read (Elt Ideal) A3) (((cfg0.win 5).blk t).view.read (Elt Ideal) A5)) hy).trans ?_
  exact block_entry (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) (((cfg0.win 5).blk t).view.read (Elt Ideal) A5)
    A0 A1 A2 A3 A4 A5 p r q h0 h1 h2 h3 h4 h5

/-- The result array where covered: the layer of the arrays the region finds. -/
def G (c : Dev nD) : S100000x128.Idx → EReal :=
  layer (M := 100000) (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- WHAT POINT `t` WRITES BACK is block `t` of the layer of the arrays as the region finds them. -/
theorem flushed_eq (c : Dev nD) (t : Fin cfg0.N) :
    (dats m 0 c).flushed 6 t = ((cfg0.win 6).blk t).view.read (Elt Ideal) (G m c) := by
  rw [Cert.KernelIdeal.Value.flushed6]
  exact out_block t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v13).slice (win0_6.rect t)).set ↔ _
  rw [View.set_slice_whole, Rect.mem_set_unit]
  exact Iff.rfl

/-- Every entry of the result array is in the block of the point that covers its row. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 5000, by rw [hN]; omega⟩
  obtain ⟨-, -, -, -, -, -, -, -, -, -, -, -, e60, e61⟩ := idx_facts t
  have e60' : win0_6.index t (0 : Fin 2) = (i 0).val / 5000 := e60
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE RESULT ARRAY after the run: the layer of the arrays the region finds. -/
theorem final (c : Dev nD) : (dats m 0 c).arrAt 6 cfg0.N = G m c :=
  (dats m 0 c).arrAt_eq_of_cover 6 (G m c) (fun t _ => flushed_eq m c t) cover

/-- … which is the layer of the argument arrays and their aggregate. -/
theorem G_eq (c : Dev nD) :
    G m c = layer (M := 100000) (m ((c : Thread nD τ).loc main_arg0))
      (aggregate (m ((c : Thread nD τ).loc main_arg0)) (m ((c : Thread nD τ).loc main_arg5))
        (m ((c : Thread nD τ).loc main_arg6)) (m ((c : Thread nD τ).loc main_arg7)))
      (m ((c : Thread nD τ).loc main_arg1)) (m ((c : Thread nD τ).loc main_arg2))
      (m ((c : Thread nD τ).loc main_arg3)) (m ((c : Thread nD τ).loc main_arg4)) := by
  have e0 : V m c (Pipeline.arrRef spec0 0) = m ((c : Thread nD τ).loc main_arg0) := V_main_arg0 m c
  have e1 : (V m c (Pipeline.arrRef spec0 1) : S100000x128.Idx → EReal)
      = aggregate (m ((c : Thread nD τ).loc main_arg0)) (m ((c : Thread nD τ).loc main_arg5))
          (m ((c : Thread nD τ).loc main_arg6)) (m ((c : Thread nD τ).loc main_arg7)) := V_aggregate m c
  have e2 : V m c (Pipeline.arrRef spec0 2) = m ((c : Thread nD τ).loc main_arg1) := V_main_arg1 m c
  have e3 : V m c (Pipeline.arrRef spec0 3) = m ((c : Thread nD τ).loc main_arg2) := V_main_arg2 m c
  have e4 : V m c (Pipeline.arrRef spec0 4) = m ((c : Thread nD τ).loc main_arg3) := V_main_arg3 m c
  have e5 : V m c (Pipeline.arrRef spec0 5) = m ((c : Thread nD τ).loc main_arg4) := V_main_arg4 m c
  unfold G
  rw [e0, e1, e2, e3, e4, e5]

/-- The frame run re-posted: the result array at the layer of the arguments and their aggregate, the arguments unchanged. -/
theorem run : θ_run defs (onTc (τ := τ) (main (F := Ideal))) ⟨m, fun _ => 0, ρ⟩ fun r => ∀ c : Dev nD,
      r.2.mem ((c : Thread nD τ).loc main_v13)
          = layer (M := 100000) (m ((c : Thread nD τ).loc main_arg0))
              (aggregate (m ((c : Thread nD τ).loc main_arg0)) (m ((c : Thread nD τ).loc main_arg5))
                (m ((c : Thread nD τ).loc main_arg6)) (m ((c : Thread nD τ).loc main_arg7)))
              (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (G_eq m c)), (h c).2⟩)
    (Cert.KernelIdeal.Value.run_blocks m ρ)

end Cert.KernelIdeal.Whole

end
-- ==== Proof.RefRun.lean ====
/-
  The reference program's run, read back: its @main is a straight line of host operations once the rectifier's
  two small functions are written out at their call site, so every weakly fair execution ends with the result
  buffer at the operations' composed term of the argument arrays, and the arguments unchanged. The first sixteen
  operations (the gather of the neighbours' rows, their scaling and the scatter-add that aggregates them) are kept
  as ONE named function `aggregate`; the rest — the two matrix products, the rectifier and the row normalisation —
  as a second one, `transform`, of the node embeddings, the parameters and the aggregate.
-/
import proofs.«130024_j13408887898544_1_alg».proof.Proof.Gen.ReferenceIdeal
import Idealize.ShloMosaic.Lib.StableHlo.Run

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the rectifier's call written out: its seven operations (the zero and its broadcast,
    the comparison, the slope converted and broadcast, the product, and the inner function's one select) run into the
    call's own buffers. -/
abbrev ops : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg6 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg6 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg6 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg5 main_v7 (broadcastInDim S1600000x1 ![0] bcast_S1600000_S1600000x1_0 : (⟨S1600000, .f32⟩ : BufTy).Contents (Elt F) → (⟨S1600000x1, .f32⟩ : BufTy).Contents (Elt F)),
    unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg7 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v12 main_v13 (addf : (⟨S100000x128, .f32⟩ : BufTy).Contents (Elt F) → (⟨S100000x128, .f32⟩ : BufTy).Contents (Elt F) → (⟨S100000x128, .f32⟩ : BufTy).Contents (Elt F)),
    binary main_v13 main_arg1 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v15 (broadcastInDim S100000x128 ![0, 1] bcast_S1x128_S100000x128_0_1 : (⟨S1x128, .f32⟩ : BufTy).Contents (Elt F) → (⟨S100000x128, .f32⟩ : BufTy).Contents (Elt F)),
    binary main_v14 main_v15 main_v16 (addf : (⟨S100000x128, .f32⟩ : BufTy).Contents (Elt F) → (⟨S100000x128, .f32⟩ : BufTy).Contents (Elt F) → (⟨S100000x128, .f32⟩ : BufTy).Contents (Elt F)),
    binary main_arg0 main_v12 main_v17 (mulf : (⟨S100000x128, .f32⟩ : BufTy).Contents (Elt F) → (⟨S100000x128, .f32⟩ : BufTy).Contents (Elt F) → (⟨S100000x128, .f32⟩ : BufTy).Contents (Elt F)),
    binary main_v17 main_arg2 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v19 (broadcastInDim S100000x128 ![0, 1] bcast_S1x128_S100000x128_0_1 : (⟨S1x128, .f32⟩ : BufTy).Contents (Elt F) → (⟨S100000x128, .f32⟩ : BufTy).Contents (Elt F)),
    binary main_v18 main_v19 main_v20 (addf : (⟨S100000x128, .f32⟩ : BufTy).Contents (Elt F) → (⟨S100000x128, .f32⟩ : BufTy).Contents (Elt F) → (⟨S100000x128, .f32⟩ : BufTy).Contents (Elt F)),
    binary main_v16 main_v20 main_v21 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S100000x128 ![] bcast_S_S100000x128),
    TRef.binary (.of main_v21) main_call0.v0 main_call0.v1 (cmpf .oge),
    TRef.unary (.of main_cst_1) main_call0.v2 id,
    TRef.unary main_call0.v2 main_call0.v3 (broadcastInDim S100000x128 ![] bcast_S_S100000x128),
    TRef.binary main_call0.v3 (.of main_v21) main_call0.v4 mulf,
    TRef.ternary main_call0.v1 (.of main_v21) main_call0.v4 main_call0.call0.v0 select,
    binary main_v22 main_v22 main_v23 (mulf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    binary main_v23 main_cst_2 main_v24 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v24 main_v25 (broadcastInDim S100000x1 ![0] bcast_S100000_S100000x1_0 : (⟨S100000, .f32⟩ : BufTy).Contents (Elt F) → (⟨S100000x1, .f32⟩ : BufTy).Contents (Elt F)),
    unary main_v25 main_v26 (Host.sqrt : (⟨S100000x1, .f32⟩ : BufTy).Contents (Elt F) → (⟨S100000x1, .f32⟩ : BufTy).Contents (Elt F)),
    nullary main_cst_3 (constant S_ .f32 0x2B8CBCCC#32),
    unary main_cst_3 main_v27 (broadcastInDim S100000x1 ![] bcast_S_S100000x1 : (⟨S_, .f32⟩ : BufTy).Contents (Elt F) → (⟨S100000x1, .f32⟩ : BufTy).Contents (Elt F)),
    binary main_v26 main_v27 main_v28 (maximumf : (⟨S100000x1, .f32⟩ : BufTy).Contents (Elt F) → (⟨S100000x1, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v22 main_v29 main_v30 (Host.divf : (⟨S100000x128, .f32⟩ : BufTy).Contents (Elt F) → (⟨S100000x128, .f32⟩ : BufTy).Contents (Elt F) → (⟨S100000x128, .f32⟩ : BufTy).Contents (Elt F)) ]

set_option maxRecDepth 4096 in
/-- @main is that straight line: the two functions' definitions unfolded at their calls, both sides are one chain of
    steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., binary_bufs_sub .., binary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every weakly fair execution of @main terminates with each TensorCore buffer at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The two halves of the program as functions of the arrays -/

/-- THE AGGREGATION: for every edge the source node's row of the embeddings (a negative source index counted back from
    the number of nodes), scaled by the edge's weight, summed into the row of the edge's target node. -/
def aggregate (ego : FVec F S100000x128 .f32) (adj : FVec F S1600000 .f32) (src dst : IVec S1600000 32) :
    FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf
      (Host.gather gather_S100000x128_S1600000x1_S1600000x128_1_0_n_n_0_1_1128 ego
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 adj)))

/-- The two matrix products with their bias rows, added. -/
def rPre (ego : FVec F S100000x128 .f32) (W1 W2 : FVec F S128x128 .f32) (b1 b2 : FVec F S1x128 .f32)
    (lap : FVec F S100000x128 .f32) : FVec F S100000x128 .f32 :=
  addf
    (addf (Host.dotGeneral dot_S100000x128_S128x128_S100000x128_1_0_0_1_n_n none (addf ego lap) W1)
      (broadcastInDim S100000x128 ![0, 1] bcast_S1x128_S100000x128_0_1 b1))
    (addf (Host.dotGeneral dot_S100000x128_S128x128_S100000x128_1_0_0_1_n_n none (mulf ego lap) W2)
      (broadcastInDim S100000x128 ![0, 1] bcast_S1x128_S100000x128_0_1 b2))

/-- The leaky rectifier, as the outlined function computes it. -/
def rAct (s : FVec F S100000x128 .f32) : FVec F S100000x128 .f32 :=
  select (cmpf .oge s (broadcastInDim S100000x128 ![] bcast_S_S100000x128 (constant S_ .f32 0x00000000#32))) s
    (mulf (broadcastInDim S100000x128 ![] bcast_S_S100000x128 (id (constant S_ .f32 0x3E4CCCCD#32))) s)

/-- Each row divided by its floored length. -/
def rOut (a : FVec F S100000x128 .f32) : FVec F S100000x128 .f32 :=
  Host.divf a
    (broadcastInDim S100000x128 ![0, 1] bcast_S100000x1_S100000x128_0_1
      (maximumf
        (Host.sqrt (broadcastInDim S100000x1 ![0] bcast_S100000_S100000x1_0
          (Host.reduceAdd (mulf a a) (constant S_ .f32 0x00000000#32) reducesTo_S100000x128_S100000_d1 h_S_)))
        (broadcastInDim S100000x1 ![] bcast_S_S100000x1 (constant S_ .f32 0x2B8CBCCC#32))))

/-- On every device, from any memory with zero counters: every weakly fair execution of @main terminates with the
    result at the transform of the node embeddings, the parameters and the aggregate, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = rOut (rAct (rPre (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
              (aggregate (m ((c.tc : Thread nD τ).loc main_arg0)) (m ((c.tc : Thread nD τ).loc main_arg5))
                (m ((c.tc : Thread nD τ).loc main_arg6)) (m ((c.tc : Thread nD τ).loc main_arg7)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v30).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_fold m ρ)

end Cert.ReferenceIdeal.Host

end
-- ==== Proof.RefValue.lean ====
/-
  The reference's transform, read at one entry of its 100000 × 128 result: it is the layer (LayerSpec) of the node
  embeddings, the aggregate, the two weight matrices and the two bias rows. The host's matrix product is the plain
  sum over the contracted column; its row sum is the initial zero plus the sum along the row; the broadcasts only
  place a bias row under every row, a constant at every entry, and a row's norm at every column of the row.
-/
import proofs.«130024_j13408887898544_1_alg».proof.Proof.RefRun
import proofs.«130024_j13408887898544_1_alg».proof.Proof.LayerSpec
import Idealize.ShloMosaic.Lib.Pipeline.Value
import Idealize.ShloMosaic.Lib.ValueLayout

noncomputable section

open scoped BigOperators

namespace Cert.ReferenceIdeal.Host

open Cert.ReferenceIdeal Cert.ReferenceIdeal.Gen Idealize.ShloMosaic Idealize.ShloMosaic.ValueIdx Cert.Layer

/-! ## The matrix product at an entry -/

abbrev D := dot_S100000x128_S128x128_S100000x128_1_0_0_1_n_n

theorem lhs_row (i : S100000x128.Idx) (q : D.contr.Idx) : (D.lhsIdx i q 0).val = (i 0).val := by
  unfold DotDims.lhsIdx
  rw [dif_neg (show ¬(0 : Fin S100000x128.rank) ∈ D.lhsBatch by decide),
    dif_pos (show (0 : Fin S100000x128.rank) ∈ D.lhsNonContracting by decide)]
  rfl

theorem lhs_col (i : S100000x128.Idx) (q : D.contr.Idx) : (D.lhsIdx i q 1).val = (q ⟨0, by decide⟩).val :=
  D.lhsIdx_val_of_single rfl i q

theorem rhs_row (i : S100000x128.Idx) (q : D.contr.Idx) : (D.rhsIdx i q 0).val = (q ⟨0, by decide⟩).val :=
  D.rhsIdx_val_of_single rfl i q

theorem rhs_col (i : S100000x128.Idx) (q : D.contr.Idx) : (D.rhsIdx i q 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- The 100000 × 128 array times a 128 × 128 matrix: entry (r, c) is the sum over the shared column `k` of the array's
    (r, k) times the matrix's (k, c). -/
theorem dot_entry (x : FVec Ideal S100000x128 .f32) (w : FVec Ideal S128x128 .f32) (r : Fin 100000) (c : Fin 128) :
    Host.dotGeneral D none x w (ix2 r c) = ∑ k : Fin 128, x (ix2 r k) * w (ix2 k c) := by
  show FloatOps.dotGeneral D none .single x w (ix2 r c) = _
  rw [Ideal.dotGeneral_apply, ← Equiv.sum_comp (contrEquiv1 D 128 rfl rfl).symm]
  refine Finset.sum_congr rfl fun k _ => ?_
  have hk := contrEquiv1_symm_val D 128 rfl rfl k
  have el : D.lhsIdx (ix2 r c) ((contrEquiv1 D 128 rfl rfl).symm k) = ix2 r k := funext fun a => Fin.ext (by
    match a with
    | ⟨0, _⟩ => exact lhs_row _ _
    | ⟨1, _⟩ => exact (lhs_col _ _).trans hk)
  have er : D.rhsIdx (ix2 r c) ((contrEquiv1 D 128 rfl rfl).symm k) = ix2 k c := funext fun a => Fin.ext (by
    match a with
    | ⟨0, _⟩ => exact (rhs_row _ _).trans hk
    | ⟨1, _⟩ => exact rhs_col _ _)
  rw [el, er]

/-! ## The broadcasts at an entry -/

/-- A bias row placed under every row: entry (r, c) is the row's entry c. -/
theorem bias_entry {α : Type} (b : S1x128.Idx → α) (r : Fin 100000) (c : Fin 128) :
    broadcastInDim S100000x128 ![0, 1] bcast_S1x128_S100000x128_0_1 b (ix2 r c) = b (ix2 (0 : Fin 1) c) := by
  refine broadcastInDim_apply _ _ b (ix2 r c) (ix2 (0 : Fin 1) c) fun ax => ?_
  match ax with
  | ⟨0, _⟩ => rfl
  | ⟨1, _⟩ => rfl

/-- A scalar placed at every entry of the array. -/
theorem splat_entry {α : Type} (x : S_.Idx → α) (i : S100000x128.Idx) :
    broadcastInDim S100000x128 ![] bcast_S_S100000x128 x i = x ix0 :=
  broadcastInDim_apply _ _ x i ix0 fun ax => ax.elim0

/-- A scalar placed at every entry of a column. -/
theorem splat_col_entry {α : Type} (x : S_.Idx → α) (i : S100000x1.Idx) :
    broadcastInDim S100000x1 ![] bcast_S_S100000x1 x i = x ix0 :=
  broadcastInDim_apply _ _ x i ix0 fun ax => ax.elim0

/-- A length-100000 vector as a column: entry (r, u) is the vector's entry r. -/
theorem column_entry {α : Type} (v : S100000.Idx → α) (r : Fin 100000) (u : Fin 1) :
    broadcastInDim S100000x1 ![0] bcast_S100000_S100000x1_0 v (ix2 r u) = v (ix1 r) := by
  refine broadcastInDim_apply _ _ v (ix2 r u) (ix1 r) fun ax => ?_
  match ax with
  | ⟨0, _⟩ => rfl

/-- A column placed along every row: entry (r, c) is the column's entry (r, 0). -/
theorem spread_entry {α : Type} (v : S100000x1.Idx → α) (r : Fin 100000) (c : Fin 128) :
    broadcastInDim S100000x128 ![0, 1] bcast_S100000x1_S100000x128_0_1 v (ix2 r c) = v (ix2 r (0 : Fin 1)) := by
  refine broadcastInDim_apply _ _ v (ix2 r c) (ix2 r (0 : Fin 1)) fun ax => ?_
  match ax with
  | ⟨0, _⟩ => rfl
  | ⟨1, _⟩ => rfl

/-- The host's sum along a row from the initial zero. -/
theorem rowSum_entry (x : FVec Ideal S100000x128 .f32) (r : Fin 100000) :
    Host.reduceAdd x (constant (F := Ideal) S_ .f32 0x00000000#32) reducesTo_S100000x128_S100000_d1 h_S_ (ix1 r)
      = ∑ k : Fin 128, x (ix2 r k) := by
  show Ideal.hostReduceAdd reducesTo_S100000x128_S100000_d1 x (Ideal.ofBits .f32 0x00000000#32) (ix1 r) = _
  rw [Ideal.hostReduceAdd_single reducesTo_S100000x128_S100000_d1 (by decide), Ideal.ofBits_zero_f32, zero_add]
  refine Finset.sum_congr rfl fun k _ => congrArg x (funext fun a => Fin.ext (by
    match a with
    | ⟨0, _⟩ => rfl
    | ⟨1, _⟩ => rfl))

/-- The host's quotient and square root, entry by entry, are the extended reals'. -/
theorem hostDivf_entry {s : Shape} (a b : FVec Ideal s .f32) (i : s.Idx) : Host.divf a b i = Ideal.div (a i) (b i) := rfl
theorem hostSqrt_entry {s : Shape} (a : FVec Ideal s .f32) (i : s.Idx) : Host.sqrt a i = Ideal.sqrt (a i) := rfl

/-! ## The three stages at an entry -/

theorem rPre_entry (ego : FVec Ideal S100000x128 .f32) (W1 W2 : FVec Ideal S128x128 .f32) (b1 b2 : FVec Ideal S1x128 .f32)
    (lap : FVec Ideal S100000x128 .f32) (r : Fin 100000) (c : Fin 128) :
    rPre ego W1 W2 b1 b2 lap (ix2 r c) = pre (M := 100000) ego lap W1 W2 b1 b2 r c := by
  unfold rPre pre
  rw [addf_apply, addf_apply, addf_apply, dot_entry, dot_entry, bias_entry, bias_entry]
  rfl

theorem rAct_entry (s : FVec Ideal S100000x128 .f32) (i : S100000x128.Idx) : rAct s i = leaky (s i) := by
  unfold rAct leaky
  rw [select_apply, cmpf_apply, mulf_apply, splat_entry, splat_entry]
  rfl

theorem rOut_entry (a : FVec Ideal S100000x128 .f32) (r : Fin 100000) (c : Fin 128) :
    rOut a (ix2 r c) = Ideal.div (a (ix2 r c))
      (max (Ideal.sqrt (∑ j : Fin 128, a (ix2 r j) * a (ix2 r j))) (Ideal.ofBits .f32 0x2B8CBCCC#32)) := by
  unfold rOut
  rw [hostDivf_entry, spread_entry, maximumf_apply, splat_col_entry, hostSqrt_entry, column_entry, rowSum_entry]
  rfl

/-- THE REFERENCE'S TRANSFORM AT AN ENTRY: the layer of its arrays. -/
theorem transform_entry (ego : FVec Ideal S100000x128 .f32) (W1 W2 : FVec Ideal S128x128 .f32) (b1 b2 : FVec Ideal S1x128 .f32)
    (lap : FVec Ideal S100000x128 .f32) (r : Fin 100000) (c : Fin 128) :
    rOut (rAct (rPre ego W1 W2 b1 b2 lap)) (ix2 r c) = rowOut (M := 100000) ego lap W1 W2 b1 b2 r c := by
  rw [rOut_entry]
  unfold rowOut rowNorm act
  simp only [rAct_entry, rPre_entry]

/-- So the transform IS the layer, as arrays. -/
theorem transform_eq (ego : FVec Ideal S100000x128 .f32) (W1 W2 : FVec Ideal S128x128 .f32) (b1 b2 : FVec Ideal S1x128 .f32)
    (lap : FVec Ideal S100000x128 .f32) :
    rOut (rAct (rPre ego W1 W2 b1 b2 lap)) = layer (M := 100000) ego lap W1 W2 b1 b2 := by
  funext i
  obtain ⟨r, c, rfl⟩ : ∃ (r : Fin 100000) (c : Fin 128), i = ix2 r c := ⟨i 0, i 1, eq_ix2 i⟩
  rw [transform_entry, layer_ix2]

end Cert.ReferenceIdeal.Host

end
-- ==== Proof.lean ====
/-
  The kernel and its reference compute one propagation layer of a graph network: the neighbours' embeddings are
  aggregated along the edges (a gather, a scaling by the edge weights and a scatter-add, the same host operations in
  both programs), and the node embeddings `ego` and the aggregate `lap` are then sent through

      out = a / max(‖a‖₂ per row, ε),   a = leaky(((ego + lap) · W1 + b1) + ((ego ⊙ lap) · W2 + b2)).

  The kernel walks the 100000 rows in twenty blocks of 5000, each block through the matrix unit and a lane reduction;
  the reference takes all rows at once through the host's matrix product and row sum. Over the extended reals both are
  the same function of the arrays, entry by entry (LayerSpec): a matrix product into a zero accumulator and the host's
  product are the same sum over the contracted column, a lane reduction and the host's row sum from zero are the same
  sum along the row, every other operation is applied entry by entry with the same constants, and a row of the result
  depends on that row of `ego` and `lap` only — so the blocks of the kernel's result are the blocks of the reference's.
  No law of the extended reals beyond `0 + x = x` is used, so the precondition (finite inputs) is never opened.

  KernelBody: the kernel body's value at an entry. KernelValue: from the blocks to the whole array. RefRun: the
  reference's run. RefValue: the reference's value at an entry. Here: the five claims.
-/
import proofs.«130024_j13408887898544_1_alg».proof.Defs
import proofs.«130024_j13408887898544_1_alg».proof.Proof.Gen.Kernel
import proofs.«130024_j13408887898544_1_alg».proof.Proof.Gen.Kernel.Skeleton
import proofs.«130024_j13408887898544_1_alg».proof.Proof.Gen.Kernel.Launch
import proofs.«130024_j13408887898544_1_alg».proof.Proof.Gen.Kernel.Points
import proofs.«130024_j13408887898544_1_alg».proof.Proof.Gen.Kernel.Frame
import proofs.«130024_j13408887898544_1_alg».proof.Proof.Gen.KernelIdeal
import proofs.«130024_j13408887898544_1_alg».proof.Proof.Gen.KernelIdeal.Skeleton
import proofs.«130024_j13408887898544_1_alg».proof.Proof.Gen.KernelIdeal.Launch
import proofs.«130024_j13408887898544_1_alg».proof.Proof.Gen.KernelIdeal.Points
import proofs.«130024_j13408887898544_1_alg».proof.Proof.Gen.KernelIdeal.Frame
import proofs.«130024_j13408887898544_1_alg».proof.Proof.Gen.KernelIdeal.Value
import proofs.«130024_j13408887898544_1_alg».proof.Proof.Gen.ReferenceIdeal
import proofs.«130024_j13408887898544_1_alg».proof.Proof.Gen.Pre_finite_inputs
import proofs.«130024_j13408887898544_1_alg».proof.Proof.KernelValue
import proofs.«130024_j13408887898544_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Host.run (F := Ideal) m ρ)

/-- The two programs aggregate the neighbours by the same operations with the same dimension numbers. -/
theorem aggregate_eq (ego : FVec Ideal ⟨2, ![100000, 128]⟩ .f32) (adj : FVec Ideal ⟨1, ![1600000]⟩ .f32)
    (src dst : IVec ⟨1, ![1600000]⟩ 32) :
    Cert.ReferenceIdeal.Host.aggregate (F := Ideal) ego adj src dst = Cert.KernelIdeal.Whole.aggregate ego adj src dst := rfl

/-- From memories that agree on the arguments both programs end with the layer of the arguments and their aggregate
    in the result: the kernel block by block (KernelValue), the reference in one piece (RefRun, RefValue). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Host.run (F := Ideal) m' ρ')
  obtain ⟨a0, a1, a2, a3, a4, a5, a6, a7⟩ := hagree c
  rw [a0, a1, a2, a3, a4, a5, a6, a7, Cert.ReferenceIdeal.Host.transform_eq, aggregate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
